-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x131072 : Shape := ⟨2, ![1024, 131072]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S1024x131072 : S_.BroadcastsInDim S1024x131072 (![] : Fin 0 → Fin S1024x131072.rank)
  reducesTo_S1024x131072_S_d0_1 : S1024x131072.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S16 .f32) (main_arg5 : FVec F S16x1 .f32) (main_arg6 : FVec F S1 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg5
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S1024x131072 .f32) (main_arg1 : FVec F S1024x64 .f32) (main_arg2 : FVec F S64 .f32) (main_arg3 : FVec F S64x16 .f32) (main_arg4 : FVec F S16 .f32) (main_arg5 : FVec F S16x1 .f32) (main_arg6 : FVec F S1 .f32) : IVec S_ 1 :=
  let main_v0 : FVec F S1024x131072 .f32 := Host.absf main_arg0
  let main_cst : FVec F S_ .f32 := constant S_ .f32 0x7F800000#32
  let main_v1 : FVec F S1024x131072 .f32 := broadcastInDim S1024x131072 ![] bcast_S_S1024x131072 main_cst
  let main_v2 : IVec S1024x131072 1 := cmpf .olt main_v0 main_v1
  let main_c : IVec S_ 1 := constantI S_ 1 1#1
  let main_v3 : IVec S_ 1 := (fun x v => Host.reduce IntOp.andi x v reducesTo_S1024x131072_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg4 main_arg5 main_arg6 main_v13 main_v16
-- ==== Kernel.lean ====
abbrev S1024x131072 : Shape := ⟨2, ![1024, 131072]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S64x1 : Shape := ⟨2, ![64, 1]⟩
abbrev S1x1 : Shape := ⟨2, ![1, 1]⟩
abbrev S1x131072 : Shape := ⟨2, ![1, 131072]⟩
abbrev S1024x4096 : Shape := ⟨2, ![1024, 4096]⟩
abbrev S1x4096 : Shape := ⟨2, ![1, 4096]⟩
abbrev S64x4096 : Shape := ⟨2, ![64, 4096]⟩
abbrev S512x4096 : Shape := ⟨2, ![512, 4096]⟩
abbrev S512x64 : Shape := ⟨2, ![512, 64]⟩
abbrev S16x4096 : Shape := ⟨2, ![16, 4096]⟩
abbrev S4096 : Shape := ⟨1, ![4096]⟩

abbrev nBuf : Space → Nat
  | .hbm => 11
  | .vmem => 10
  | .smem => 0
  | _ => 0

abbrev bufTy : (tb : Table) → Fin (tcTables nBuf tb) → BufTy
  | .hbm, ⟨0, _⟩ => ⟨S1024x131072, .f32⟩
  | .hbm, ⟨1, _⟩ => ⟨S1024x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S64x1, .f32⟩
  | .hbm, ⟨8, _⟩ => ⟨S16x1, .f32⟩
  | .hbm, ⟨9, _⟩ => ⟨S1x1, .f32⟩
  | .hbm, ⟨10, _⟩ => ⟨S1x131072, .f32⟩
  | .local _ .vmem, ⟨0, _⟩ => ⟨S1024x4096, .f32⟩
  | .local _ .vmem, ⟨1, _⟩ => ⟨S1024x4096, .f32⟩
  | .local _ .vmem, ⟨2, _⟩ => ⟨S1024x64, .f32⟩
  | .local _ .vmem, ⟨3, _⟩ => ⟨S64x1, .f32⟩
  | .local _ .vmem, ⟨4, _⟩ => ⟨S64x16, .f32⟩
  | .local _ .vmem, ⟨5, _⟩ => ⟨S16x1, .f32⟩
  | .local _ .vmem, ⟨6, _⟩ => ⟨S16x1, .f32⟩
  | .local _ .vmem, ⟨7, _⟩ => ⟨S1x1, .f32⟩
  | .local _ .vmem, ⟨8, _⟩ => ⟨S1x4096, .f32⟩
  | .local _ .vmem, ⟨9, _⟩ => ⟨S1x4096, .f32⟩
  | _, _ => ⟨S1024x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S64x1 : S64.ShapeCasts S64x1
  shapeCasts_S16_S16x1 : S16.ShapeCasts S16x1
  shapeCasts_S1_S1x1 : S1.ShapeCasts S1x1
  inb_S1024x4096_S512x4096_0_0 : ∀ a, (![0, 0] : Fin 2 → Nat) a + S512x4096.size a ≤ S1024x4096.size a
  h_S512x4096 : 0 < S512x4096.numel
  bitsLt_bf16_f32 : FTy.bits .bf16 < FTy.bits .f32
  inb_S1024x64_S512x64_0_0 : ∀ a, (![0, 0] : Fin 2 → Nat) a + S512x64.size a ≤ S1024x64.size a
  h_S512x64 : 0 < S512x64.numel
  inb_S1024x4096_S512x4096_512_0 : ∀ a, (![512, 0] : Fin 2 → Nat) a + S512x4096.size a ≤ S1024x4096.size a
  inb_S1024x64_S512x64_512_0 : ∀ a, (![512, 0] : Fin 2 → Nat) a + S512x64.size a ≤ S1024x64.size a
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S64x16_S64x16_0_0 : ∀ a, (![0, 0] : Fin 2 → Nat) a + S64x16.size a ≤ S64x16.size a
  h_S64x16 : 0 < S64x16.numel
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x4096 : S16x1.Broadcasts S16x4096
  reduces_S16x4096_S4096 : S16x4096.Reduces [0] S4096
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x4096 : S1x1.Broadcasts S1x4096
  inb_S1x4096_S1x4096_0_0 : ∀ a, (![0, 0] : Fin 2 → Nat) a + S1x4096.size a ≤ S1x4096.size a
  h_S1x4096 : 0 < S1x4096.numel
  dot_S512x64_S512x4096_S64x4096_0_0_1_1_n_n_wf : DotDims.WF S512x64 S512x4096 S64x4096 [0] [0] [1] [1] [] []
  dot_S64x16_S64x4096_S16x4096_0_0_1_1_n_n_wf : DotDims.WF S64x16 S64x4096 S16x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x131072.size a
  hwx0_0 : ∀ i : grid0.Coords, EltTy.bits .f32 = 32 ∨ (Rect.block (s := S1024x131072) S1024x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x131072.size a
  hwx0_7 : ∀ i : grid0.Coords, EltTy.bits .f32 = 32 ∨ (Rect.block (s := S1x131072) S1x4096.size (cc0_transform_7 i) (hinb0_7 i)).WholeWords (EltTy.packing .f32)

variable [Facts₀]

def dot_S512x64_S512x4096_S64x4096_0_0_1_1_n_n : DotDims S512x64 S512x4096 S64x4096 where
  lhsContracting := [0]
  rhsContracting := [0]
  lhsNonContracting := [1]
  rhsNonContracting := [1]
  lhsBatch := []
  rhsBatch := []
  wf := dot_S512x64_S512x4096_S64x4096_0_0_1_1_n_n_wf
def dot_S64x16_S64x4096_S16x4096_0_0_1_1_n_n : DotDims S64x16 S64x4096 S16x4096 where
  lhsContracting := [0]
  rhsContracting := [0]
  lhsNonContracting := [1]
  rhsNonContracting := [1]
  lhsBatch := []
  rhsBatch := []
  wf := dot_S64x16_S64x4096_S16x4096_0_0_1_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S1024x131072 : Shape := ⟨2, ![1024, 131072]⟩
abbrev S1024x64 : Shape := ⟨2, ![1024, 64]⟩
abbrev S64 : Shape := ⟨1, ![64]⟩
abbrev S64x16 : Shape := ⟨2, ![64, 16]⟩
abbrev S16 : Shape := ⟨1, ![16]⟩
abbrev S16x1 : Shape := ⟨2, ![16, 1]⟩
abbrev S1 : Shape := ⟨1, ![1]⟩
abbrev S131072x1024 : Shape := ⟨2, ![131072, 1024]⟩
abbrev S131072x64 : Shape := ⟨2, ![131072, 64]⟩
abbrev S1x64 : Shape := ⟨2, ![1, 64]⟩
abbrev S_ : Shape := ⟨0, ![]⟩
abbrev S131072x16 : Shape := ⟨2, ![131072, 16]⟩
abbrev S1x16 : Shape := ⟨2, ![1, 16]⟩
abbrev S131072x1 : Shape := ⟨2, ![131072, 1]⟩
abbrev S1x1 : Shape := ⟨2, ![1, 1]⟩
abbrev S131072 : Shape := ⟨1, ![131072]⟩
abbrev S1x131072 : Shape := ⟨2, ![1, 131072]⟩

abbrev nBuf : Space → Nat
  | .hbm => 28
  | .vmem => 0
  | .smem => 0
  | _ => 0

abbrev bufTy : (tb : Table) → Fin (tcTables nBuf tb) → BufTy
  | .hbm, ⟨0, _⟩ => ⟨S1024x131072, .f32⟩
  | .hbm, ⟨1, _⟩ => ⟨S1024x64, .f32⟩
  | .hbm, ⟨2, _⟩ => ⟨S64, .f32⟩
  | .hbm, ⟨3, _⟩ => ⟨S64x16, .f32⟩
  | .hbm, ⟨4, _⟩ => ⟨S16, .f32⟩
  | .hbm, ⟨5, _⟩ => ⟨S16x1, .f32⟩
  | .hbm, ⟨6, _⟩ => ⟨S1, .f32⟩
  | .hbm, ⟨7, _⟩ => ⟨S131072x1024, .f32⟩
  | .hbm, ⟨8, _⟩ => ⟨S131072x64, .f32⟩
  | .hbm, ⟨9, _⟩ => ⟨S1x64, .f32⟩
  | .hbm, ⟨10, _⟩ => ⟨S131072x64, .f32⟩
  | .hbm, ⟨11, _⟩ => ⟨S131072x64, .f32⟩
  | .hbm, ⟨12, _⟩ => ⟨S_, .f32⟩
  | .hbm, ⟨13, _⟩ => ⟨S131072x64, .f32⟩
  | .hbm, ⟨14, _⟩ => ⟨S131072x64, .f32⟩
  | .hbm, ⟨15, _⟩ => ⟨S131072x16, .f32⟩
  | .hbm, ⟨16, _⟩ => ⟨S1x16, .f32⟩
  | .hbm, ⟨17, _⟩ => ⟨S131072x16, .f32⟩
  | .hbm, ⟨18, _⟩ => ⟨S131072x16, .f32⟩
  | .hbm, ⟨19, _⟩ => ⟨S_, .f32⟩
  | .hbm, ⟨20, _⟩ => ⟨S131072x16, .f32⟩
  | .hbm, ⟨21, _⟩ => ⟨S131072x16, .f32⟩
  | .hbm, ⟨22, _⟩ => ⟨S131072x1, .f32⟩
  | .hbm, ⟨23, _⟩ => ⟨S1x1, .f32⟩
  | .hbm, ⟨24, _⟩ => ⟨S131072x1, .f32⟩
  | .hbm, ⟨25, _⟩ => ⟨S131072x1, .f32⟩
  | .hbm, ⟨26, _⟩ => ⟨S131072, .f32⟩
  | .hbm, ⟨27, _⟩ => ⟨S1x131072, .f32⟩
  | _, _ => ⟨S1024x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩

abbrev nD : Nat := 1
abbrev τ : Topo := Topo.v7x

variable {F : FTy → Type} [FloatOps F]

class Facts₀ : Prop where
  transposes_S1024x131072_S131072x1024_1_0 : S1024x131072.Transposes [1, 0] S131072x1024
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S16_S1x16_1 : S16.BroadcastsInDim S1x16 (![1] : Fin 1 → Fin S1x16.rank)
  bcast_S1x16_S131072x16_0_1 : S1x16.BroadcastsInDim S131072x16 (![0, 1] : Fin 2 → Fin S131072x16.rank)
  bcast_S_S131072x16 : S_.BroadcastsInDim S131072x16 (![] : Fin 0 → Fin S131072x16.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  shapeCasts_S131072x1_S131072 : S131072x1.ShapeCasts S131072
  bcast_S131072_S1x131072_1 : S131072.BroadcastsInDim S1x131072 (![1] : Fin 1 → Fin S1x131072.rank)
  dot_S131072x1024_S1024x64_S131072x64_1_0_0_1_n_n_wf : DotDims.WF S131072x1024 S1024x64 S131072x64 [1] [0] [0] [1] [] []
  dot_S131072x64_S64x16_S131072x16_1_0_0_1_n_n_wf : DotDims.WF S131072x64 S64x16 S131072x16 [1] [0] [0] [1] [] []
  dot_S131072x16_S16x1_S131072x1_1_0_0_1_n_n_wf : DotDims.WF S131072x16 S16x1 S131072x1 [1] [0] [0] [1] [] []

variable [Facts₀]

def dot_S131072x1024_S1024x64_S131072x64_1_0_0_1_n_n : DotDims S131072x1024 S1024x64 S131072x64 where
  lhsContracting := [1]
  rhsContracting := [0]
  lhsNonContracting := [0]
  rhsNonContracting := [1]
  lhsBatch := []
  rhsBatch := []
  wf := dot_S131072x1024_S1024x64_S131072x64_1_0_0_1_n_n_wf
def dot_S131072x64_S64x16_S131072x16_1_0_0_1_n_n : DotDims S131072x64 S64x16 S131072x16 where
  lhsContracting := [1]
  rhsContracting := [0]
  lhsNonContracting := [0]
  rhsNonContracting := [1]
  lhsBatch := []
  rhsBatch := []
  wf := dot_S131072x64_S64x16_S131072x16_1_0_0_1_n_n_wf
def dot_S131072x16_S16x1_S131072x1_1_0_0_1_n_n : DotDims S131072x16 S16x1 S131072x1 where
  lhsContracting := [1]
  rhsContracting := [0]
  lhsNonContracting := [0]
  rhsNonContracting := [1]
  lhsBatch := []
  rhsBatch := []
  wf := dot_S131072x16_S16x1_S131072x1_1_0_0_1_n_n_wf

class Facts : Prop extends Facts₀ where

variable [Facts]
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LaneReads.lean ====
/-
  The kernel body's non-pointwise operations, each read at explicit coordinates on the extended reals.

  The body works on a block of 4096 columns (lanes). Its layout operations move an index and nothing else: a bias column
  [64,1] or [16,1] broadcast along the lanes reads the column at the row; the 1 × 1 bias broadcast along the lanes reads
  its one entry; a vector [4096] viewed as the row [1,4096] reads its lane. Its lane-wise sum over the 16 rows of a
  [16,4096] vector is a sum over `Fin 16`. Its two matrix products contract the ROW axis of both operands (the weights
  on the left): entry (d, q) of the first is Σ_k weight(k, d) · input(k, q) over 512 rows, entry (e, q) of the second
  is Σ_d weight(d, e) · hidden(d, q) over the 64 units.
-/
import proofs.«141399_j32160715112709_2_alg».proof.Proof.Gen.KernelIdeal.Frame
import proofs.«141399_j32160715112709_2_alg».proof.Proof.LibContractSum
import Idealize.ShloMosaic.Lib.Pipeline.Value
import Idealize.ShloMosaic.Lib.ValueIdx
import Idealize.ShloMosaic.PureOps.Ideal.Laws

noncomputable section

namespace Cert.KernelIdeal.LaneReads

open Cert.KernelIdeal Cert.KernelIdeal.Gen Idealize.ShloMosaic Idealize.ShloMosaic.ValueIdx

/-! ## The layout operations and reductions at explicit coordinates -/

/-- A column [64,1] broadcast along 4096 lanes reads the column at the row. -/
theorem column64_apply {α : Type} (v : S64x1.Idx → α) (h : S64x1.Broadcasts S64x4096) (d : Fin 64) (q : Fin 4096) :
    broadcastTo S64x4096 v h (ix2 d q) = v (ix2 d (0 : Fin 1)) :=
  broadcastTo_apply v h (ix2 d q) (ix2 d (0 : Fin 1)) (fun a => match a with
    | ⟨0, _⟩ => by show d.val = if (64 : Nat) = 1 then 0 else d.val; rw [if_neg (by decide)]
    | ⟨1, _⟩ => by show 0 = if (1 : Nat) = 1 then 0 else q.val; rw [if_pos rfl])

/-- A column [16,1] broadcast along 4096 lanes reads the column at the row. -/
theorem column16_apply {α : Type} (v : S16x1.Idx → α) (h : S16x1.Broadcasts S16x4096) (e : Fin 16) (q : Fin 4096) :
    broadcastTo S16x4096 v h (ix2 e q) = v (ix2 e (0 : Fin 1)) :=
  broadcastTo_apply v h (ix2 e q) (ix2 e (0 : Fin 1)) (fun a => match a with
    | ⟨0, _⟩ => by show e.val = if (16 : Nat) = 1 then 0 else e.val; rw [if_neg (by decide)]
    | ⟨1, _⟩ => by show 0 = if (1 : Nat) = 1 then 0 else q.val; rw [if_pos rfl])

/-- The 1 × 1 bias broadcast along 4096 lanes reads its one entry. -/
theorem scalar_apply {α : Type} (v : S1x1.Idx → α) (h : S1x1.Broadcasts S1x4096) (q : Fin 4096) :
    broadcastTo S1x4096 v h (ix2 (0 : Fin 1) q) = v (ix2 (0 : Fin 1) (0 : Fin 1)) :=
  broadcastTo_apply v h (ix2 (0 : Fin 1) q) (ix2 (0 : Fin 1) (0 : Fin 1)) (fun a => match a with
    | ⟨0, _⟩ => by show 0 = if (1 : Nat) = 1 then 0 else 0; rw [if_pos rfl]
    | ⟨1, _⟩ => by show 0 = if (1 : Nat) = 1 then 0 else q.val; rw [if_pos rfl])

/-- The sum over the 16 rows of a [16,4096] vector, at lane `q`. -/
theorem row_sum_apply (src : FVec Ideal S16x4096 .f32) (h : S16x4096.Reduces [0] S4096) (q : Fin 4096) :
    multiReduction .add [0] S4096 src 0x00000000#32 h (.inl rfl) rfl (ix1 q) = ∑ e : Fin 16, src (ix2 e q) := by
  refine (Ideal.multiReduction_add_single src 0x00000000#32 h (.inl rfl) rfl (ix1 q)).trans ?_
  refine Finset.sum_congr rfl fun e _ => congrArg src (funext fun a => Fin.ext ?_)
  match a with
  | ⟨0, _⟩ => rfl
  | ⟨1, _⟩ => rfl

/-- A vector [4096] viewed as the row [1,4096] reads lane `q` at (0, q). -/
theorem row_cast_apply {α : Type} (v : S4096.Idx → α) (h : S4096.ShapeCasts S1x4096) (q : Fin 4096) :
    shapeCast S1x4096 v h (ix2 (0 : Fin 1) q) = v (ix1 q) := by
  refine shapeCast_apply v h _ (ix1 q) ?_
  rw [Shape.rowMajor_val_one, Shape.rowMajor_val_two]
  show q.val = 0 * 4096 + q.val
  omega

/-! ## The two matrix products: both contract the row axis of both operands -/

theorem lhs1_row (j : S64x4096.Idx) (c : dot_S512x64_S512x4096_S64x4096_0_0_1_1_n_n.contr.Idx) :
    (dot_S512x64_S512x4096_S64x4096_0_0_1_1_n_n.lhsIdx j c 0).val = (c ⟨0, by decide⟩).val :=
  dot_S512x64_S512x4096_S64x4096_0_0_1_1_n_n.lhsIdx_val_of_single rfl j c
theorem lhs1_col (j : S64x4096.Idx) (c : dot_S512x64_S512x4096_S64x4096_0_0_1_1_n_n.contr.Idx) :
    (dot_S512x64_S512x4096_S64x4096_0_0_1_1_n_n.lhsIdx j c 1).val = (j 0).val := by
  unfold DotDims.lhsIdx
  rw [dif_neg (show ¬(1 : Fin S512x64.rank) ∈ dot_S512x64_S512x4096_S64x4096_0_0_1_1_n_n.lhsBatch by decide), dif_pos (show (1 : Fin S512x64.rank) ∈ dot_S512x64_S512x4096_S64x4096_0_0_1_1_n_n.lhsNonContracting by decide)]
  rfl
theorem rhs1_row (j : S64x4096.Idx) (c : dot_S512x64_S512x4096_S64x4096_0_0_1_1_n_n.contr.Idx) :
    (dot_S512x64_S512x4096_S64x4096_0_0_1_1_n_n.rhsIdx j c 0).val = (c ⟨0, by decide⟩).val :=
  dot_S512x64_S512x4096_S64x4096_0_0_1_1_n_n.rhsIdx_val_of_single rfl j c
theorem rhs1_col (j : S64x4096.Idx) (c : dot_S512x64_S512x4096_S64x4096_0_0_1_1_n_n.contr.Idx) :
    (dot_S512x64_S512x4096_S64x4096_0_0_1_1_n_n.rhsIdx j c 1).val = (j 1).val := by
  unfold DotDims.rhsIdx
  rw [dif_neg (show ¬(1 : Fin S512x4096.rank) ∈ dot_S512x64_S512x4096_S64x4096_0_0_1_1_n_n.rhsBatch by decide), dif_pos (show (1 : Fin S512x4096.rank) ∈ dot_S512x64_S512x4096_S64x4096_0_0_1_1_n_n.rhsNonContracting by decide)]
  rfl

/-- The first layer's product over 512 rows: entry (d, q) is the sum over the rows `k` of weight (k, d) times input (k, q). -/
theorem product1_apply (A : FVec Ideal S512x64 .bf16) (B : FVec Ideal S512x4096 .bf16) (d : Fin 64) (q : Fin 4096) :
    matmul dot_S512x64_S512x4096_S64x4096_0_0_1_1_n_n none A B (constant S64x4096 .f32 0x00000000#32) (ix2 d q)
      = ∑ k : Fin 512, A (ix2 k d) * B (ix2 k q) := by
  simp only [matmul]
  refine Cert.LibContractSum.matmul_zero_sum dot_S512x64_S512x4096_S64x4096_0_0_1_1_n_n none 512 rfl rfl A B (ix2 d q)
    (fun k => ix2 k d) (fun k => ix2 k q) (fun k => ?_) (fun k => ?_)
  · have hk := contrEquiv1_symm_val dot_S512x64_S512x4096_S64x4096_0_0_1_1_n_n 512 rfl rfl k
    exact funext fun a => Fin.ext (by
      match a with
      | ⟨0, _⟩ => exact (lhs1_row _ _).trans hk
      | ⟨1, _⟩ => exact lhs1_col _ _)
  · have hk := contrEquiv1_symm_val dot_S512x64_S512x4096_S64x4096_0_0_1_1_n_n 512 rfl rfl k
    exact funext fun a => Fin.ext (by
      match a with
      | ⟨0, _⟩ => exact (rhs1_row _ _).trans hk
      | ⟨1, _⟩ => exact rhs1_col _ _)

theorem lhs2_row (j : S16x4096.Idx) (c : dot_S64x16_S64x4096_S16x4096_0_0_1_1_n_n.contr.Idx) :
    (dot_S64x16_S64x4096_S16x4096_0_0_1_1_n_n.lhsIdx j c 0).val = (c ⟨0, by decide⟩).val :=
  dot_S64x16_S64x4096_S16x4096_0_0_1_1_n_n.lhsIdx_val_of_single rfl j c
theorem lhs2_col (j : S16x4096.Idx) (c : dot_S64x16_S64x4096_S16x4096_0_0_1_1_n_n.contr.Idx) :
    (dot_S64x16_S64x4096_S16x4096_0_0_1_1_n_n.lhsIdx j c 1).val = (j 0).val := by
  unfold DotDims.lhsIdx
  rw [dif_neg (show ¬(1 : Fin S64x16.rank) ∈ dot_S64x16_S64x4096_S16x4096_0_0_1_1_n_n.lhsBatch by decide), dif_pos (show (1 : Fin S64x16.rank) ∈ dot_S64x16_S64x4096_S16x4096_0_0_1_1_n_n.lhsNonContracting by decide)]
  rfl
theorem rhs2_row (j : S16x4096.Idx) (c : dot_S64x16_S64x4096_S16x4096_0_0_1_1_n_n.contr.Idx) :
    (dot_S64x16_S64x4096_S16x4096_0_0_1_1_n_n.rhsIdx j c 0).val = (c ⟨0, by decide⟩).val :=
  dot_S64x16_S64x4096_S16x4096_0_0_1_1_n_n.rhsIdx_val_of_single rfl j c
theorem rhs2_col (j : S16x4096.Idx) (c : dot_S64x16_S64x4096_S16x4096_0_0_1_1_n_n.contr.Idx) :
    (dot_S64x16_S64x4096_S16x4096_0_0_1_1_n_n.rhsIdx j c 1).val = (j 1).val := by
  unfold DotDims.rhsIdx
  rw [dif_neg (show ¬(1 : Fin S64x4096.rank) ∈ dot_S64x16_S64x4096_S16x4096_0_0_1_1_n_n.rhsBatch by decide), dif_pos (show (1 : Fin S64x4096.rank) ∈ dot_S64x16_S64x4096_S16x4096_0_0_1_1_n_n.rhsNonContracting by decide)]
  rfl

/-- The second layer's product over the 64 units: entry (e, q) is the sum over `d` of weight (d, e) times hidden (d, q). -/
theorem product2_apply (A : FVec Ideal S64x16 .bf16) (B : FVec Ideal S64x4096 .bf16) (e : Fin 16) (q : Fin 4096) :
    matmul dot_S64x16_S64x4096_S16x4096_0_0_1_1_n_n none A B (constant S16x4096 .f32 0x00000000#32) (ix2 e q)
      = ∑ d : Fin 64, A (ix2 d e) * B (ix2 d q) := by
  simp only [matmul]
  refine Cert.LibContractSum.matmul_zero_sum dot_S64x16_S64x4096_S16x4096_0_0_1_1_n_n none 64 rfl rfl A B (ix2 e q)
    (fun d => ix2 d e) (fun d => ix2 d q) (fun d => ?_) (fun d => ?_)
  · have hk := contrEquiv1_symm_val dot_S64x16_S64x4096_S16x4096_0_0_1_1_n_n 64 rfl rfl d
    exact funext fun a => Fin.ext (by
      match a with
      | ⟨0, _⟩ => exact (lhs2_row _ _).trans hk
      | ⟨1, _⟩ => exact lhs2_col _ _)
  · have hk := contrEquiv1_symm_val dot_S64x16_S64x4096_S16x4096_0_0_1_1_n_n 64 rfl rfl d
    exact funext fun a => Fin.ext (by
      match a with
      | ⟨0, _⟩ => exact (rhs2_row _ _).trans hk
      | ⟨1, _⟩ => exact rhs2_col _ _)

end Cert.KernelIdeal.LaneReads

end
-- ==== Proof.ColumnMlp.lean ====
/-
  A three-layer perceptron applied to one column of numbers, on the extended reals.

  For a column `col` of 1024 numbers:
      h1[d] = max (Σ_k col[k] · W1[k,d] + b1[d]) 0          (64 values)
      h2[e] = max (Σ_d h1[d] · W2[d,e] + b2[e]) 0           (16 values)
      out   = Σ_e h2[e] · W3[e,0] + b3
  `score` is that number, and `scores` is the row [1, 131072] obtained by applying it to every column of a
  1024 × 131072 matrix, with the biases given as arrays: the function both programs are shown to compute.

  A tiled evaluation arranges the same number differently: the first layer's sum over the 1024 rows is taken as two
  sums over 512 rows each, added one after the other onto a zero, and in the first two layers each product has the
  weight as its LEFT factor. `scoreHalves` spells that arrangement, and `scoreHalves_eq` says it is the same
  number. Only three laws are used — addition of extended reals is commutative and associative (so a finite sum may
  be cut in two), `0 + a = a`, and multiplication is commutative — and they hold at the infinities too, so nothing
  here asks the entries to be finite.
-/
import Idealize.ShloMosaic.PureOps.Ideal
import Idealize.ShloMosaic.Lib.ValueIdx

noncomputable section

namespace Cert.ColumnMlp

open Idealize.ShloMosaic Idealize.ShloMosaic.ValueIdx

/-- A matrix of extended reals with literal extents, indexed as the programs' arrays are. -/
abbrev Mat (r c : Nat) : Type := (⟨2, ![r, c]⟩ : Shape).Idx → EReal
/-- A vector of extended reals with a literal extent. -/
abbrev Vect (n : Nat) : Type := (⟨1, ![n]⟩ : Shape).Idx → EReal

/-- Row `k` of the first half of the 1024 rows. -/
abbrev lo (k : Fin 512) : Fin 1024 := ⟨k.val, by omega⟩
/-- Row `k` of the second half: row `512 + k`. -/
abbrev hi (k : Fin 512) : Fin 1024 := ⟨512 + k.val, by omega⟩

/-- A sum over 1024 terms is the sum of its first 512 terms plus the sum of its last 512, in any commutative
    additive monoid. -/
theorem sum_halves {M : Type*} [AddCommMonoid M] (f : Fin 1024 → M) :
    ∑ k : Fin 1024, f k = (∑ k : Fin 512, f (lo k)) + ∑ k : Fin 512, f (hi k) :=
  Fin.sum_univ_add (a := 512) (b := 512) f

variable (col : Fin 1024 → EReal) (w1 : Mat 1024 64) (b1 : Fin 64 → EReal) (w2 : Mat 64 16) (b2 : Fin 16 → EReal)
  (w3 : Mat 16 1) (b3 : EReal)

/-- First hidden layer, unit `d`. -/
def hidden1 (d : Fin 64) : EReal :=
  max ((∑ k : Fin 1024, col k * w1 (ix2 k d)) + b1 d) 0

/-- Second hidden layer, unit `e`. -/
def hidden2 (e : Fin 16) : EReal :=
  max ((∑ d : Fin 64, hidden1 col w1 b1 d * w2 (ix2 d e)) + b2 e) 0

/-- The column's output. -/
def score : EReal :=
  (∑ e : Fin 16, hidden2 col w1 b1 w2 b2 e * w3 (ix2 e (0 : Fin 1))) + b3

/-- The first hidden layer with the sum over the rows cut into two halves added onto a zero, weight first. -/
def hidden1Halves (d : Fin 64) : EReal :=
  max ((((0 : EReal) + ∑ k : Fin 512, w1 (ix2 (lo k) d) * col (lo k))
      + ∑ k : Fin 512, w1 (ix2 (hi k) d) * col (hi k)) + b1 d) 0

/-- The second hidden layer over it, weight first. -/
def hidden2Halves (e : Fin 16) : EReal :=
  max ((∑ d : Fin 64, w2 (ix2 d e) * hidden1Halves col w1 b1 d) + b2 e) 0

/-- The output over those. -/
def scoreHalves : EReal :=
  (∑ e : Fin 16, hidden2Halves col w1 b1 w2 b2 e * w3 (ix2 e (0 : Fin 1))) + b3

theorem hidden1Halves_eq (d : Fin 64) : hidden1Halves col w1 b1 d = hidden1 col w1 b1 d := by
  unfold hidden1Halves hidden1
  have comm : ∀ k : Fin 1024, w1 (ix2 k d) * col k = col k * w1 (ix2 k d) := fun k => mul_comm _ _
  rw [zero_add, sum_halves fun k : Fin 1024 => col k * w1 (ix2 k d)]
  simp only [comm]

theorem hidden2Halves_eq (e : Fin 16) : hidden2Halves col w1 b1 w2 b2 e = hidden2 col w1 b1 w2 b2 e := by
  unfold hidden2Halves hidden2
  have comm : ∀ d : Fin 64, w2 (ix2 d e) * hidden1Halves col w1 b1 d = hidden1 col w1 b1 d * w2 (ix2 d e) :=
    fun d => by rw [hidden1Halves_eq, mul_comm]
  simp only [comm]

/-- The tiled arrangement gives the same output, for all extended-real entries. -/
theorem scoreHalves_eq : scoreHalves col w1 b1 w2 b2 w3 b3 = score col w1 b1 w2 b2 w3 b3 := by
  unfold scoreHalves score
  simp only [hidden2Halves_eq]

/-- The output depends on its arguments only through the entries it reads. -/
theorem score_congr {col col' : Fin 1024 → EReal} {w1 w1' : Mat 1024 64} {b1 b1' : Fin 64 → EReal} {w2 w2' : Mat 64 16}
    {b2 b2' : Fin 16 → EReal} {w3 w3' : Mat 16 1} {b3 b3' : EReal}
    (hcol : ∀ k, col k = col' k) (hw1 : ∀ k d, w1 (ix2 k d) = w1' (ix2 k d)) (hb1 : ∀ d, b1 d = b1' d)
    (hw2 : ∀ d e, w2 (ix2 d e) = w2' (ix2 d e)) (hb2 : ∀ e, b2 e = b2' e)
    (hw3 : ∀ e, w3 (ix2 e (0 : Fin 1)) = w3' (ix2 e (0 : Fin 1))) (hb3 : b3 = b3') :
    score col w1 b1 w2 b2 w3 b3 = score col' w1' b1' w2' b2' w3' b3' := by
  unfold score hidden2 hidden1
  simp only [hcol, hw1, hb1, hw2, hb2, hw3, hb3]

/-- The result row of a 1024 × 131072 matrix `x`: entry (0, n) is the output of column `n` of `x`, the biases read
    from their arrays. -/
def scores (x : Mat 1024 131072) (w1 : Mat 1024 64) (b1 : Vect 64) (w2 : Mat 64 16) (b2 : Vect 16) (w3 : Mat 16 1)
    (b3 : Vect 1) : Mat 1 131072 :=
  fun i => score (fun k => x (ix2 k (i 1))) w1 (fun d => b1 (ix1 d)) w2 (fun e => b2 (ix1 e)) w3 (b3 (ix1 (0 : Fin 1)))

end Cert.ColumnMlp

end
-- ==== Proof.BlockEntry.lean ====
/-
  What the kernel body leaves at one entry of its output block.

  At a grid point the body holds a 1024 × 4096 block of the input (4096 columns), the three weight matrices whole, and
  the three biases as columns [64,1], [16,1], [1,1]. For column `q` of the block it computes: the first layer's products
  summed over rows 0–511 and then over rows 512–1023 (each half of the block and of the first weight matrix is read
  through its own rectangle, whose index map shifts the row by 0 or by 512), added one after the other onto a zero; the bias column broadcast along the lanes; the
  clamp at zero; the second layer the same way with one product; and the last layer as a lane-wise product with the
  third weight column summed over its 16 rows, plus the last bias. Reading entry (0, q) of the one store through those
  operations gives `ColumnMlp.scoreHalves` of column `q` of the block — the tiled arrangement, term for term.
  A change of float format is the identity on the extended reals, and the zero word is the number 0.
-/
import proofs.«141399_j32160715112709_2_alg».proof.Proof.LaneReads
import proofs.«141399_j32160715112709_2_alg».proof.Proof.ColumnMlp

noncomputable section

namespace Cert.KernelIdeal.BlockEntry

open Cert.KernelIdeal Cert.KernelIdeal.Gen Idealize.ShloMosaic Idealize.ShloMosaic.ValueIdx Cert.ColumnMlp
open Cert.KernelIdeal.LaneReads

/-! ## The body's two payloads at an entry, over its loads -/

/-- Everything before the last bias, at entry (0, q), over the body's eight loads. -/
theorem layers_apply (P0 : Vec Ideal S512x4096 .f32) (P1 : Vec Ideal S512x64 .f32) (P2 : Vec Ideal S512x4096 .f32)
    (P3 : Vec Ideal S512x64 .f32) (P4 : Vec Ideal S64x1 .f32) (P5 : Vec Ideal S64x16 .f32) (P6 : Vec Ideal S16x1 .f32)
    (P7 : Vec Ideal S16x1 .f32) (q : Fin 4096) :
    k0_pay2 (F := Ideal) P0 P1 P2 P3 P4 P5 P6 P7 (ix2 (0 : Fin 1) q)
      = ∑ e : Fin 16, max ((∑ d : Fin 64, P5 (ix2 d e) * max ((((0 : EReal) + ∑ k : Fin 512, P1 (ix2 k d) * P0 (ix2 k q))
            + ∑ k : Fin 512, P3 (ix2 k d) * P2 (ix2 k q)) + P4 (ix2 d (0 : Fin 1))) 0) + P6 (ix2 e (0 : Fin 1))) 0
          * P7 (ix2 e (0 : Fin 1)) := by
  unfold k0_pay2
  simp only [row_cast_apply]
  refine (row_sum_apply _ _ q).trans ?_
  simp only [mulf_apply, maximumf_apply, addf_apply, column16_apply, column64_apply, shapeCast_self, product2_apply,
    product1_apply, truncf_apply, broadcast_apply, Ideal.ofBits_def, Ideal.ofBits_zero_f32]

/-- The last bias added, at entry (0, q). -/
theorem bias_apply (v : FVec Ideal S1x4096 .f32) (P8 : Vec Ideal S1x1 .f32) (q : Fin 4096) :
    k0_pay1 (F := Ideal) v P8 (ix2 (0 : Fin 1) q) = v (ix2 (0 : Fin 1) q) + P8 (ix2 (0 : Fin 1) (0 : Fin 1)) := by
  unfold k0_pay1
  simp only [addf_apply, scalar_apply, shapeCast_self]

/-! ## The half-height rectangles' index maps -/

/-- Rows 0–511 of the input block: entry (k, q) of the rectangle is entry (k, q) of the block. -/
theorem input_lo (k : Fin 512) (q : Fin 4096) : r0_0.idx (ix2 k q) = ix2 (lo k) q :=
  funext fun a => Fin.ext (by
    match a with
    | ⟨0, _⟩ => show 0 + 1 * k.val = k.val; omega
    | ⟨1, _⟩ => show 0 + 1 * q.val = q.val; omega)

/-- Rows 512–1023 of the input block: entry (k, q) of the rectangle is entry (512 + k, q) of the block. -/
theorem input_hi (k : Fin 512) (q : Fin 4096) : r0_2.idx (ix2 k q) = ix2 (hi k) q :=
  funext fun a => Fin.ext (by
    match a with
    | ⟨0, _⟩ => show 512 + 1 * k.val = 512 + k.val; omega
    | ⟨1, _⟩ => show 0 + 1 * q.val = q.val; omega)

/-- Rows 0–511 of the first weight matrix. -/
theorem weight_lo (k : Fin 512) (d : Fin 64) : r0_1.idx (ix2 k d) = ix2 (lo k) d :=
  funext fun a => Fin.ext (by
    match a with
    | ⟨0, _⟩ => show 0 + 1 * k.val = k.val; omega
    | ⟨1, _⟩ => show 0 + 1 * d.val = d.val; omega)

/-- Rows 512–1023 of the first weight matrix. -/
theorem weight_hi (k : Fin 512) (d : Fin 64) : r0_3.idx (ix2 k d) = ix2 (hi k) d :=
  funext fun a => Fin.ext (by
    match a with
    | ⟨0, _⟩ => show 512 + 1 * k.val = 512 + k.val; omega
    | ⟨1, _⟩ => show 0 + 1 * d.val = d.val; omega)

/-! ## The block the body leaves -/

theorem zero_offsets : (![0, 0] : Fin 2 → Nat) = fun _ => 0 := funext fun a => by fin_cases a <;> rfl

/-- Entry (0, q) of the block the body leaves is the tiled perceptron of column `q` of the input block, over the weight
    matrices and the bias columns the body holds. (`y` is the entry, `hy` names its lane.) -/
theorem block_entry (X0 : Vec Ideal S1024x4096 .f32) (X1 : Vec Ideal S1024x64 .f32) (X2 : Vec Ideal S64x1 .f32)
    (X3 : Vec Ideal S64x16 .f32) (X4 : Vec Ideal S16x1 .f32) (X5 : Vec Ideal S16x1 .f32) (X6 : Vec Ideal S1x1 .f32)
    (y : S1x4096.Idx) (q : Fin 4096) (hy : y = ix2 (0 : Fin 1) q) :
    out0_7 (F := Ideal) X0 X1 X2 X3 X4 X5 X6 y
      = scoreHalves (fun k => X0 (ix2 k q)) X1 (fun d => X2 (ix2 d (0 : Fin 1))) X3 (fun e => X4 (ix2 e (0 : Fin 1))) X5
          (X6 (ix2 (0 : Fin 1) (0 : Fin 1))) := by
  subst hy
  unfold out0_7
  rw [View.canon_unit_zero zero_offsets]
  simp only [View.ld_unit_zero (S := S64x1) zero_offsets, View.ld_unit_zero (S := S64x16) zero_offsets,
    View.ld_unit_zero (S := S16x1) zero_offsets, View.ld_unit_zero (S := S1x1) zero_offsets]
  rw [bias_apply, layers_apply]
  simp only [View.ld, input_lo, input_hi, weight_lo, weight_hi]
  rfl

end Cert.KernelIdeal.BlockEntry

end
-- ==== Proof.KernelColumns.lean ====
/-
  The kernel's result array is the row of column scores of its arguments.

  The grid has 32 points; point `t` holds columns 4096·t … 4096·t + 4095 of the input (all 1024 rows), the three weight
  matrices whole, and the three biases as columns that the host made from the bias vectors by a reshape, and it writes
  back block `t` of the [1, 131072] result. So:
  * lane `q` of point `t`'s input block is column 4096·t + q of the input (`input_entry`), a weight window's block is
    the weight matrix itself, and entry (d, 0) of a reshaped bias is entry d of the bias vector;
  * hence what point `t` writes back is block `t` of `ColumnMlp.scores` of the seven arguments: the body leaves the tiled
    perceptron of the block's column (`BlockEntry.block_entry`), the tiled arrangement is the perceptron
    (`ColumnMlp.scoreHalves_eq`), and the perceptron only looks at the entries just named (`ColumnMlp.score_congr`);
  * every column n lies in exactly the block of point n / 4096, so the 32 blocks cover the result.
  The run then ends with the result array holding `ColumnMlp.scores` of the arguments, and the arguments unchanged.
-/
import proofs.«141399_j32160715112709_2_alg».proof.Proof.ValuePatched
import proofs.«141399_j32160715112709_2_alg».proof.Proof.BlockEntry
import Idealize.ShloMosaic.Lib.Pipeline.Value
import Idealize.ShloMosaic.Lib.StableHlo.Run

noncomputable section

namespace Cert.KernelIdeal.Columns

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result array: the row of column scores of the seven argument arrays as launched. -/
abbrev result (c : Dev nD) : Buf (Elt Ideal) ((c : Thread nD τ).loc main_v3) :=
  Cert.ColumnMlp.scores (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6))

/-! ## Where each window's block sits -/

/-- The input and the result move along the columns with the grid point; every other window stays at block (0, 0).
    (Decided over the 32 points.) -/
theorem moving_index : ∀ t : Fin cfg0.N, win0_0.index t (0 : Fin 2) = 0 ∧ win0_0.index t (1 : Fin 2) = t.val
    ∧ win0_7.index t (0 : Fin 2) = 0 ∧ win0_7.index t (1 : Fin 2) = t.val :=
  (by decide +kernel : ∀ t : Fin grid0.N, _)

theorem resident_index : ∀ t : Fin cfg0.N, (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) :=
  (by decide +kernel : ∀ t : Fin grid0.N, _)

/-- The column of the arrays that lane `q` of point `t` holds: 4096·t + q. -/
def column (t : Fin cfg0.N) (q : Fin 4096) : Fin 131072 :=
  ⟨t.val * 4096 + q.val, by have hN : cfg0.N = 32 := N_0; have := t.isLt; have := q.isLt; omega⟩

/-! ## The blocks' entries as entries of the arguments -/

/-- Entry (k, q) of point `t`'s input block is entry (k, 4096·t + q) of the input. -/
theorem input_entry (c : Dev nD) (t : Fin cfg0.N) (k : Fin 1024) (q : Fin 4096) :
    (iblk m c 0 t : Vec Ideal S1024x4096 .f32) (ix2 k q)
      = ((m ((c : Thread nD τ).loc main_arg0)) : S1024x131072.Idx → EReal) (ix2 k (column t q)) := by
  obtain ⟨h0, h1, -, -⟩ := moving_index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 1024 + 1 * k.val = k.val; rw [h0]; omega
  | ⟨1, _⟩ => show win0_0.index t (1 : Fin 2) * 4096 + 1 * q.val = t.val * 4096 + q.val; rw [h1]; omega

/-- The first weight window's block is the first weight matrix. -/
theorem weight1_entry (c : Dev nD) (t : Fin cfg0.N) (k : Fin 1024) (d : Fin 64) :
    (iblk m c 1 t : Vec Ideal S1024x64 .f32) (ix2 k d) = ((m ((c : Thread nD τ).loc main_arg1)) : S1024x64.Idx → EReal) (ix2 k d) := by
  obtain ⟨⟨h0, h1⟩, -⟩ := resident_index t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 1024 + 1 * k.val = k.val; rw [h0]; omega
  | ⟨1, _⟩ => show win0_1.index t (1 : Fin 2) * 64 + 1 * d.val = d.val; rw [h1]; omega

/-- The second weight window's block is the second weight matrix. -/
theorem weight2_entry (c : Dev nD) (t : Fin cfg0.N) (d : Fin 64) (e : Fin 16) :
    (iblk m c 3 t : Vec Ideal S64x16 .f32) (ix2 d e) = ((m ((c : Thread nD τ).loc main_arg3)) : S64x16.Idx → EReal) (ix2 d e) := by
  obtain ⟨-, -, ⟨h0, h1⟩, -⟩ := resident_index t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 64 + 1 * d.val = d.val; rw [h0]; omega
  | ⟨1, _⟩ => show win0_3.index t (1 : Fin 2) * 16 + 1 * e.val = e.val; rw [h1]; omega

/-- The third weight window's block is the third weight matrix. -/
theorem weight3_entry (c : Dev nD) (t : Fin cfg0.N) (e : Fin 16) :
    (iblk m c 5 t : Vec Ideal S16x1 .f32) (ix2 e (0 : Fin 1)) = ((m ((c : Thread nD τ).loc main_arg5)) : S16x1.Idx → EReal) (ix2 e (0 : Fin 1)) := by
  obtain ⟨-, -, -, -, ⟨h0, h1⟩, -⟩ := resident_index t
  unfold iblk
  rw [View.read_apply]
  show V m c main_arg5 _ = _
  rw [V_main_arg5]
  refine congrArg (m ((c : Thread nD τ).loc main_arg5)) (funext fun a => Fin.ext ?_)
  match a with
  | ⟨0, _⟩ => show win0_5.index t (0 : Fin 2) * 16 + 1 * e.val = e.val; rw [h0]; omega
  | ⟨1, _⟩ => show win0_5.index t (1 : Fin 2) * 1 + 1 * 0 = 0; rw [h1]

/-- The three bias columns are the bias vectors reshaped by the host before the launch. -/
theorem bias1_array (c : Dev nD) :
    (V m c main_v0 : S64x1.Idx → EReal) = shapeCast S64x1 (m ((c : Thread nD τ).loc main_arg2)) shapeCasts_S64_S64x1 := by
  dsimp only [V, hostOps0]; after_results; rfl
theorem bias2_array (c : Dev nD) :
    (V m c main_v1 : S16x1.Idx → EReal) = shapeCast S16x1 (m ((c : Thread nD τ).loc main_arg4)) shapeCasts_S16_S16x1 := by
  dsimp only [V, hostOps0]; after_results; rfl
theorem bias3_array (c : Dev nD) :
    (V m c main_v2 : S1x1.Idx → EReal) = shapeCast S1x1 (m ((c : Thread nD τ).loc main_arg6)) shapeCasts_S1_S1x1 := by
  dsimp only [V, hostOps0]; after_results; rfl

/-- A vector [n] reshaped to the column [n, 1] reads entry d at (d, 0). -/
theorem column_cast_apply {α : Type} {n : Nat} (v : (⟨1, ![n]⟩ : Shape).Idx → α)
    (h : (⟨1, ![n]⟩ : Shape).ShapeCasts ⟨2, ![n, 1]⟩) (d : Fin n) :
    shapeCast ⟨2, ![n, 1]⟩ v h (ix2 d (0 : Fin 1)) = v (ix1 d) := by
  refine shapeCast_apply v h _ (ix1 d) ?_
  rw [Shape.rowMajor_val_one, Shape.rowMajor_val_two]
  show d.val = d.val * 1 + 0
  omega

/-- Entry (d, 0) of the first bias window's block is entry d of the first bias. -/
theorem bias1_entry (c : Dev nD) (t : Fin cfg0.N) (d : Fin 64) :
    (iblk m c 2 t : Vec Ideal S64x1 .f32) (ix2 d (0 : Fin 1)) = ((m ((c : Thread nD τ).loc main_arg2)) : S64.Idx → EReal) (ix1 d) := by
  obtain ⟨-, ⟨h0, h1⟩, -⟩ := resident_index t
  unfold iblk
  rw [View.read_apply]
  show V m c main_v0 _ = _
  rw [bias1_array]
  refine Eq.trans (congrArg _ (funext fun a => Fin.ext ?_)) (column_cast_apply (m ((c : Thread nD τ).loc main_arg2)) shapeCasts_S64_S64x1 d)
  match a with
  | ⟨0, _⟩ => show win0_2.index t (0 : Fin 2) * 64 + 1 * d.val = d.val; rw [h0]; omega
  | ⟨1, _⟩ => show win0_2.index t (1 : Fin 2) * 1 + 1 * 0 = 0; rw [h1]

/-- Entry (e, 0) of the second bias window's block is entry e of the second bias. -/
theorem bias2_entry (c : Dev nD) (t : Fin cfg0.N) (e : Fin 16) :
    (iblk m c 4 t : Vec Ideal S16x1 .f32) (ix2 e (0 : Fin 1)) = ((m ((c : Thread nD τ).loc main_arg4)) : S16.Idx → EReal) (ix1 e) := by
  obtain ⟨-, -, -, ⟨h0, h1⟩, -⟩ := resident_index t
  unfold iblk
  rw [View.read_apply]
  show V m c main_v1 _ = _
  rw [bias2_array]
  refine Eq.trans (congrArg _ (funext fun a => Fin.ext ?_)) (column_cast_apply (m ((c : Thread nD τ).loc main_arg4)) shapeCasts_S16_S16x1 e)
  match a with
  | ⟨0, _⟩ => show win0_4.index t (0 : Fin 2) * 16 + 1 * e.val = e.val; rw [h0]; omega
  | ⟨1, _⟩ => show win0_4.index t (1 : Fin 2) * 1 + 1 * 0 = 0; rw [h1]

/-- The one entry of the third bias window's block is the one entry of the third bias. -/
theorem bias3_entry (c : Dev nD) (t : Fin cfg0.N) :
    (iblk m c 6 t : Vec Ideal S1x1 .f32) (ix2 (0 : Fin 1) (0 : Fin 1)) = ((m ((c : Thread nD τ).loc main_arg6)) : S1.Idx → EReal) (ix1 (0 : Fin 1)) := by
  obtain ⟨-, -, -, -, -, ⟨h0, h1⟩⟩ := resident_index t
  unfold iblk
  rw [View.read_apply]
  show V m c main_v2 _ = _
  rw [bias3_array]
  refine Eq.trans (congrArg _ (funext fun a => Fin.ext ?_)) (column_cast_apply (m ((c : Thread nD τ).loc main_arg6)) shapeCasts_S1_S1x1 (0 : Fin 1))
  match a with
  | ⟨0, _⟩ => show win0_6.index t (0 : Fin 2) * 1 + 1 * 0 = 0; rw [h0]
  | ⟨1, _⟩ => show win0_6.index t (1 : Fin 2) * 1 + 1 * 0 = 0; rw [h1]

/-! ## What a point writes back, the cover, the run -/

/-- Point `t` writes back block `t` of the row of column scores. -/
theorem flushed_eq (c : Dev nD) (t : Fin cfg0.N) :
    (dats m 0 c).flushed 7 t = ((cfg0.win 7).blk t).view.read (Elt Ideal) (result m c) := by
  obtain ⟨-, -, g0, g1⟩ := moving_index t
  rw [Cert.KernelIdeal.ValueP.flushed7]
  funext y
  have hy0 : (y 0).val < 1 := (y 0).isLt
  have hy1 : (y 1).val < 4096 := (y 1).isLt
  have hy : y = ix2 (0 : Fin 1) (⟨(y 1).val, hy1⟩ : Fin 4096) := funext fun a => Fin.ext (by
    match a with
    | ⟨0, _⟩ => show (y 0).val = 0; omega
    | ⟨1, _⟩ => rfl)
  have hlane : (((cfg0.win 7).blk t).view.emb y) (1 : Fin 2) = column t ⟨(y 1).val, hy1⟩ := Fin.ext (by
    show win0_7.index t (1 : Fin 2) * 4096 + 1 * (y 1).val = t.val * 4096 + (y 1).val
    rw [g1]; omega)
  show out0_7 (iblk m c 0 t) (iblk m c 1 t) (iblk m c 2 t) (iblk m c 3 t) (iblk m c 4 t) (iblk m c 5 t) (iblk m c 6 t) y
    = result m c (((cfg0.win 7).blk t).view.emb y)
  refine (Cert.KernelIdeal.BlockEntry.block_entry (iblk m c 0 t) (iblk m c 1 t) (iblk m c 2 t) (iblk m c 3 t)
    (iblk m c 4 t) (iblk m c 5 t) (iblk m c 6 t) y ⟨(y 1).val, hy1⟩ hy).trans ?_
  refine (Cert.ColumnMlp.scoreHalves_eq _ _ _ _ _ _ _).trans ?_
  show Cert.ColumnMlp.score _ _ _ _ _ _ _ = Cert.ColumnMlp.score _ _ _ _ _ _ _
  refine Cert.ColumnMlp.score_congr (fun k => ?_) (fun k d => ?_) (fun d => ?_) (fun d e => ?_) (fun e => ?_) (fun e => ?_) ?_
  · rw [hlane]; exact input_entry m c t k ⟨(y 1).val, hy1⟩
  · exact weight1_entry m c t k d
  · exact bias1_entry m c t d
  · exact weight2_entry m c t d e
  · exact bias2_entry m c t e
  · exact weight3_entry m c t e
  · exact bias3_entry m c t

/-- An index of the result is in point `t`'s block iff each coordinate is in the block's range on its axis. -/
theorem mem_block (t : Fin cfg0.N) (i : S1x131072.Idx) :
    i ∈ ((cfg0.win 7).blk t).view.set ↔ ∀ a : Fin 2, win0_7.index t a * S1x4096.size a ≤ (i a).val
      ∧ (i a).val < win0_7.index t a * S1x4096.size a + S1x4096.size a := by
  show i ∈ ((View.whole main_v3).slice (win0_7.rect t)).set ↔ _
  rw [View.set_slice_whole, Rect.mem_set_unit]
  exact Iff.rfl

/-- Column n is in the block of point n / 4096: the 32 blocks cover the result. -/
theorem cover (i : S1x131072.Idx) : ∃ t : Fin cfg0.N, (cfg0.win 7).flush t = true ∧ i ∈ ((cfg0.win 7).blk t).view.set := by
  have hi0 : (i 0).val < 1 := (i 0).isLt
  have hi1 : (i 1).val < 131072 := (i 1).isLt
  have hN : cfg0.N = 32 := N_0
  obtain ⟨t, ht⟩ : ∃ t : Fin cfg0.N, t.val = (i 1).val / 4096 := ⟨⟨(i 1).val / 4096, by omega⟩, rfl⟩
  obtain ⟨-, -, g0, g1⟩ := moving_index t
  refine ⟨t, flush0_7 t, ?_⟩
  rw [mem_block]
  intro a
  match a with
  | ⟨0, _⟩ =>
    show win0_7.index t (0 : Fin 2) * 1 ≤ (i 0).val ∧ (i 0).val < win0_7.index t (0 : Fin 2) * 1 + 1
    rw [g0]; omega
  | ⟨1, _⟩ =>
    show win0_7.index t (1 : Fin 2) * 4096 ≤ (i 1).val ∧ (i 1).val < win0_7.index t (1 : Fin 2) * 4096 + 4096
    rw [g1, ht]; omega

/-- After the run the result array is the row of column scores. -/
theorem final (c : Dev nD) : (dats m 0 c).arrAt 7 cfg0.N = result m c :=
  (dats m 0 c).arrAt_eq_of_cover 7 (result m c) (fun t _ => flushed_eq m c t) cover

/-- The run: every weakly fair execution terminates with the result array at the row of column scores of the arguments
    as launched, and the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.ValueP.run_blocks (F := Ideal) m ρ)

end Cert.KernelIdeal.Columns

end
-- ==== Proof.ReferenceColumns.lean ====
/-
  The reference computes the column perceptron.

  Its program transposes the input, multiplies row by column with the first weight matrix, adds the bias broadcast along
  the rows, clamps below at zero, and repeats this twice more (the last layer without the clamp); finally it drops the
  unit axis and puts a new leading one. Read one entry (0, n) of the result through those operations: every layout
  operation moves the index and nothing else, every product is a sum over the contracted coordinate, and what is left is
  `ColumnMlp.score` at column `n`, term for term. The index equations below say where each operation reads.
-/
import proofs.«141399_j32160715112709_2_alg».proof.Proof.Gen.ReferenceIdeal.Read
import proofs.«141399_j32160715112709_2_alg».proof.Proof.ColumnMlp

noncomputable section

namespace Cert.ReferenceIdeal.ColumnForm

open Cert.ReferenceIdeal Cert.ReferenceIdeal.Read Idealize.ShloMosaic Idealize.ShloMosaic.ValueIdx

/-! ## Where each operation reads -/

/-- Entry (0, n) of the result comes from entry (n, 0) of the last layer's column. -/
theorem idx_out (n : Fin 131072) : idx_main_v15 (idx_main_v16 (ix2 (0 : Fin 1) n)) = ix2 n (0 : Fin 1) :=
  funext fun a => Fin.ext (by
    match a with
    | ⟨0, _⟩ => show n.val / 1 = n.val; omega
    | ⟨1, _⟩ => rfl)

/-- The last product reads row `n` of the second hidden layer and column 0 of the third weight matrix. -/
theorem lidx3 (n : Fin 131072) (e : Fin 16) : lidx_main_v11 (ix2 n (0 : Fin 1)) e = ix2 n e :=
  funext fun a => Fin.ext (by match a with | ⟨0, _⟩ => rfl | ⟨1, _⟩ => rfl)
theorem ridx3 (n : Fin 131072) (e : Fin 16) : ridx_main_v11 (ix2 n (0 : Fin 1)) e = ix2 e (0 : Fin 1) :=
  funext fun a => Fin.ext (by match a with | ⟨0, _⟩ => rfl | ⟨1, _⟩ => rfl)

/-- The second product reads row `n` of the first hidden layer and column `e` of the second weight matrix. -/
theorem lidx2 (n : Fin 131072) (e : Fin 16) (d : Fin 64) : lidx_main_v6 (ix2 n e) d = ix2 n d :=
  funext fun a => Fin.ext (by match a with | ⟨0, _⟩ => rfl | ⟨1, _⟩ => rfl)
theorem ridx2 (n : Fin 131072) (e : Fin 16) (d : Fin 64) : ridx_main_v6 (ix2 n e) d = ix2 d e :=
  funext fun a => Fin.ext (by match a with | ⟨0, _⟩ => rfl | ⟨1, _⟩ => rfl)

/-- The first product reads row `n` of the transposed input and column `d` of the first weight matrix. -/
theorem lidx1 (n : Fin 131072) (d : Fin 64) (k : Fin 1024) : lidx_main_v1 (ix2 n d) k = ix2 n k :=
  funext fun a => Fin.ext (by match a with | ⟨0, _⟩ => rfl | ⟨1, _⟩ => rfl)
theorem ridx1 (n : Fin 131072) (d : Fin 64) (k : Fin 1024) : ridx_main_v1 (ix2 n d) k = ix2 k d :=
  funext fun a => Fin.ext (by match a with | ⟨0, _⟩ => rfl | ⟨1, _⟩ => rfl)

/-- Entry (n, k) of the transposed input is entry (k, n) of the input. -/
theorem idx_transpose (n : Fin 131072) (k : Fin 1024) : idx_main_v0 (ix2 n k) = ix2 k n :=
  funext fun a => Fin.ext (by match a with | ⟨0, _⟩ => rfl | ⟨1, _⟩ => rfl)

/-- Each bias, broadcast along the rows, is read at the column's coordinate. -/
theorem idx_bias1 (n : Fin 131072) (d : Fin 64) : idx_main_v2 (idx_main_v3 (ix2 n d)) = ix1 d :=
  funext fun a => Fin.ext (by match a with | ⟨0, _⟩ => rfl)
theorem idx_bias2 (n : Fin 131072) (e : Fin 16) : idx_main_v7 (idx_main_v8 (ix2 n e)) = ix1 e :=
  funext fun a => Fin.ext (by match a with | ⟨0, _⟩ => rfl)
theorem idx_bias3 (n : Fin 131072) : idx_main_v12 (idx_main_v13 (ix2 n (0 : Fin 1))) = ix1 (0 : Fin 1) :=
  funext fun a => Fin.ext (by match a with | ⟨0, _⟩ => rfl)

/-! ## The result, entry by entry -/

/-- The reference's result array is the row of column scores of its seven arguments. -/
theorem result_eq (x0 : (⟨S1024x131072, .f32⟩ : BufTy).Contents (Elt Ideal)) (x1 : (⟨S1024x64, .f32⟩ : BufTy).Contents (Elt Ideal))
    (x2 : (⟨S64, .f32⟩ : BufTy).Contents (Elt Ideal)) (x3 : (⟨S64x16, .f32⟩ : BufTy).Contents (Elt Ideal))
    (x4 : (⟨S16, .f32⟩ : BufTy).Contents (Elt Ideal)) (x5 : (⟨S16x1, .f32⟩ : BufTy).Contents (Elt Ideal))
    (x6 : (⟨S1, .f32⟩ : BufTy).Contents (Elt Ideal)) :
    val_main_v16 (F := Ideal) x0 x1 x2 x3 x4 x5 x6 = Cert.ColumnMlp.scores x0 x1 x2 x3 x4 x5 x6 := by
  funext i
  obtain ⟨r, n, rfl⟩ : ∃ (r : Fin 1) (n : Fin 131072), i = ix2 r n := ⟨i 0, i 1, eq_ix2 i⟩
  obtain rfl : r = 0 := Subsingleton.elim _ _
  simp only [val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v2_apply, val_main_v1_apply, val_main_v0_apply,
    val_main_call1_v0_apply, val_main_call1_cst_apply, val_main_call0_v0_apply, val_main_call0_cst_apply,
    idx_out, lidx3, ridx3, lidx2, ridx2, lidx1, ridx1, idx_transpose, idx_bias1, idx_bias2, idx_bias3,
    Ideal.addf_def, Ideal.maximumf_def, Ideal.ofBits_def, Ideal.ofBits_zero_f32]
  rfl

end Cert.ReferenceIdeal.ColumnForm

end
-- ==== Proof.lean ====
/-
  A three-layer perceptron over the columns of a 1024 × 131072 matrix: the kernel and its reference compute the same row.

  For every column `n` of the input `x`, with weights W1 [1024,64], W2 [64,16], W3 [16,1] and biases b1, b2, b3:
      h1[d]  = max (Σ_k x[k,n] · W1[k,d] + b1[d]) 0
      h2[e]  = max (Σ_d h1[d] · W2[d,e] + b2[e]) 0
      out[0,n] = Σ_e h2[e] · W3[e,0] + b3[0]                          (`ColumnMlp.scores`).

  The reference transposes the input and applies three row-by-column products with the biases broadcast along the rows;
  read entry by entry this is the formula above (`ReferenceIdeal.ColumnForm.result_eq`, over the generated reading of the
  reference's run).

  The kernel runs over 32 grid points, each holding 4096 columns. Its body takes the first layer's sum in two halves of
  512 rows, each half a matrix product that contracts the row axis of both operands, added onto a zero; it rounds the
  operands of its products to a shorter float format, which on the extended reals is the identity; it forms the last
  layer as a lane-wise product summed over 16 rows. On the extended reals addition is commutative and associative, zero
  is neutral and multiplication is commutative — at the infinities too — so this arrangement is the same number
  (`ColumnMlp.scoreHalves_eq`), each point writes back its block of the formula, and the 32 blocks cover the result
  (`KernelIdeal.Columns.run`). Nothing in the argument needs the entries to be finite, so the precondition is never opened.

  The idealization rewrote no operation of the kernel, so there is nothing to preserve beyond the program's own text.
-/
import proofs.«141399_j32160715112709_2_alg».proof.Defs
import proofs.«141399_j32160715112709_2_alg».proof.Proof.Gen.Kernel
import proofs.«141399_j32160715112709_2_alg».proof.Proof.Gen.Kernel.Skeleton
import proofs.«141399_j32160715112709_2_alg».proof.Proof.Gen.Kernel.Launch
import proofs.«141399_j32160715112709_2_alg».proof.Proof.Gen.Kernel.Points
import proofs.«141399_j32160715112709_2_alg».proof.Proof.Gen.Kernel.Frame
import proofs.«141399_j32160715112709_2_alg».proof.Proof.Gen.KernelIdeal
import proofs.«141399_j32160715112709_2_alg».proof.Proof.Gen.KernelIdeal.Skeleton
import proofs.«141399_j32160715112709_2_alg».proof.Proof.Gen.KernelIdeal.Launch
import proofs.«141399_j32160715112709_2_alg».proof.Proof.Gen.KernelIdeal.Points
import proofs.«141399_j32160715112709_2_alg».proof.Proof.Gen.KernelIdeal.Frame
import proofs.«141399_j32160715112709_2_alg».proof.Proof.Gen.ReferenceIdeal
import proofs.«141399_j32160715112709_2_alg».proof.Proof.Gen.Pre_finite_inputs
import proofs.«141399_j32160715112709_2_alg».proof.Proof.Gen.ReferenceIdeal.Run
import proofs.«141399_j32160715112709_2_alg».proof.Proof.Gen.ReferenceIdeal.Read
import proofs.«141399_j32160715112709_2_alg».proof.Proof.KernelColumns
import proofs.«141399_j32160715112709_2_alg».proof.Proof.ReferenceColumns
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories that agree on the seven arguments both programs end with the row of column scores of those
    arguments: the kernel by its run block by block, the reference by its run read entry by entry. -/
theorem algebraic : Cert.algebraic_KernelIdeal_ReferenceIdeal := by
  intro m ρ m' ρ' _ hagree
  refine ⟨fun c => Cert.KernelIdeal.Columns.result m c, Cert.KernelIdeal.Columns.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.ColumnForm.result_eq]
  obtain ⟨a0, a1, a2, a3, a4, a5, a6⟩ := hagree c
  rw [a0, a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
